-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S1x128 : Shape := ⟨2, ![1, 128]⟩
abbrev S1 : Shape := ⟨1, ![1]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg8 : FVec F S1 .f32) (main_arg9 : FVec F S128x128 .f32) (main_arg10 : FVec F S128 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg8
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S800000 .f32) (main_arg4 : IVec S800000 32) (main_arg5 : IVec S800000 32) (main_arg6 : FVec F S800000 .f32) (main_arg7 : FVec F S1x128 .f32) (main_arg8 : FVec F S1 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000 .f32 := Host.absf main_arg6
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S1x128 .f32 := Host.absf main_arg7
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg8 main_arg9 main_arg10 main_v13 main_v16
-- ==== Kernel.lean ====
abbrev S50000x128 : Shape := ⟨2, ![50000, 128]⟩
abbrev S800000 : Shape := ⟨1, ![800000]⟩
abbrev S1x128 : Shape := ⟨2, ![1, 128]⟩
abbrev S1 : Shape := ⟨1, ![1]⟩
abbrev S128x128 : Shape := ⟨2, ![128, 128]⟩
abbrev S128 : Shape := ⟨1, ![128]⟩
abbrev S800000x1 : Shape := ⟨2, ![800000, 1]⟩
abbrev S_ : Shape := ⟨0, ![]⟩
abbrev S800000x128 : Shape := ⟨2, ![800000, 128]⟩
abbrev S1x1 : Shape := ⟨2, ![1, 1]⟩
abbrev S50000x1 : Shape := ⟨2, ![50000, 1]⟩
abbrev S2000x128 : Shape := ⟨2, ![2000, 128]⟩
abbrev S2000x1 : Shape := ⟨2, ![2000, 1]⟩
abbrev S2000 : Shape := ⟨1, ![2000]⟩

abbrev nBuf : Space → Nat
  | .hbm => 47
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S800000, .f32⟩
  | .hbm, ⟨7, _⟩ => ⟨S1x128, .f32⟩
  | .hbm, ⟨8, _⟩ => ⟨S1, .f32⟩
  | .hbm, ⟨9, _⟩ => ⟨S128x128, .f32⟩
  | .hbm, ⟨10, _⟩ => ⟨S128, .f32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S800000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S1x1, .f32⟩
  | .hbm, ⟨44, _⟩ => ⟨S1x128, .f32⟩
  | .hbm, ⟨45, _⟩ => ⟨S50000x128, .f32⟩
  | .hbm, ⟨46, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S1x128, .f32⟩
  | .local _ .vmem, ⟨7, _⟩ => ⟨S1x1, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28_0 : Ref sig .tc := ⟨.hbm, 45, rfl⟩
abbrev main_v28_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S1_S1x1 : S1.ShapeCasts S1x1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S1x1_S2000x1 : S1x1.Broadcasts S2000x1
  broadcasts_S2000x1_S2000x128 : S2000x1.Broadcasts S2000x128
  bitsLt_bf16_f32 : FTy.bits .bf16 < FTy.bits .f32
  transposes_S128x128_p1_0_S128x128 : S128x128.Transposes [1, 0] S128x128
  inb_S2000x1_S2000x1_0_0 : ∀ a, (![0, 0] : Fin 2 → Nat) a + S2000x1.size a ≤ S2000x1.size a
  h_S2000x1 : 0 < S2000x1.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x1.size a ≤ S50000x1.size a
  hwx0_8 : ∀ i : grid0.Coords, EltTy.bits .f32 = 32 ∨ (Rect.block (s := S50000x1) S2000x1.size (cc0_transform_8 i) (hinb0_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v28_1) S2000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S1x128 : Shape := ⟨2, ![1, 128]⟩
abbrev S1 : Shape := ⟨1, ![1]⟩
abbrev S128x128 : Shape := ⟨2, ![128, 128]⟩
abbrev S128 : Shape := ⟨1, ![128]⟩
abbrev S128x1 : Shape := ⟨2, ![128, 1]⟩
abbrev S50000x1 : Shape := ⟨2, ![50000, 1]⟩
abbrev S1x1 : Shape := ⟨2, ![1, 1]⟩
abbrev S_ : Shape := ⟨0, ![]⟩
abbrev S800000x1 : Shape := ⟨2, ![800000, 1]⟩
abbrev S800000x128 : Shape := ⟨2, ![800000, 128]⟩

abbrev nBuf : Space → Nat
  | .hbm => 72
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S800000, .f32⟩
  | .hbm, ⟨7, _⟩ => ⟨S1x128, .f32⟩
  | .hbm, ⟨8, _⟩ => ⟨S1, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S50000x1, .f32⟩
  | .hbm, ⟨13, _⟩ => ⟨S1x1, .f32⟩
  | .hbm, ⟨14, _⟩ => ⟨S50000x1, .f32⟩
  | .hbm, ⟨15, _⟩ => ⟨S50000x1, .f32⟩
  | .hbm, ⟨16, _⟩ => ⟨S50000x1, .f32⟩
  | .hbm, ⟨17, _⟩ => ⟨S50000x1, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S_, .f32⟩
  | .hbm, ⟨22, _⟩ => ⟨S50000x1, .f32⟩
  | .hbm, ⟨23, _⟩ => ⟨S50000x1, .f32⟩
  | .hbm, ⟨24, _⟩ => ⟨S800000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S800000x1, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x1, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S128x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩

abbrev nD : Nat := 1
abbrev τ : Topo := Topo.v7x

variable {F : FTy → Type} [FloatOps F]

class Facts₀ : Prop where
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x1_S50000x1_1_0_0_1_n_n_wf : DotDims.WF S50000x128 S128x1 S50000x1 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.GatedMix.lean ====
/-
  The layer both programs compute, one node at a time, as plain functions on the extended reals.

  For one node's feature row `x k`, its two aggregated neighbour rows `zl k` and `zh k`, a gate vector `θ` with
  offset `β`, a weight matrix `W j k` and a bias `b j`:

    logit   = (Σ_k x k · θ k) + β
    gate    = 1 / (1 + e^(-logit))                        (the logistic function, with its limits at ±∞)
    mix k   = gate · zl k + (u − gate) · zh k              (u the constant the programs write for 1.0)
    layer j = max ((Σ_k mix k · W j k) + b j) z            (z the constant the programs write for 0.0)

  Every node is treated alike and independently, so a whole array of nodes is this function row by row.
  Both programs spell the two constants by the same bit patterns, so `u` and `z` stay parameters here, and no
  arithmetic law of the extended reals is needed to join the two sides: the kernel and the reference are
  this same expression, summed in the same arrangement.
-/
import Idealize.ShloMosaic.PureOps.Ideal

noncomputable section

open scoped BigOperators

namespace Cert.GatedMix

open Idealize.ShloMosaic

variable {D E : Nat}

/-- The gate's argument for one node: the inner product of its features with the gate vector, plus the offset. -/
def logit (x θ : Fin D → EReal) (β : EReal) : EReal :=
  (∑ k : Fin D, x k * θ k) + β

/-- The node's mixing gate: the logistic function of its logit. -/
def gate (x θ : Fin D → EReal) (β : EReal) : EReal :=
  Ideal.logistic (logit x θ β)

/-- The gated combination of the node's two neighbour rows at feature `k`. -/
def mix (u : EReal) (x zl zh θ : Fin D → EReal) (β : EReal) (k : Fin D) : EReal :=
  gate x θ β * zl k + (u - gate x θ β) * zh k

/-- The node's output feature `j`: the mixed row through the linear map, plus the bias, clipped below at `z`. -/
def layer (u z : EReal) (x zl zh θ : Fin D → EReal) (β : EReal) (W : Fin E → Fin D → EReal) (b : Fin E → EReal)
    (j : Fin E) : EReal :=
  max ((∑ k : Fin D, mix u x zl zh θ β k * W j k) + b j) z

end Cert.GatedMix

end
-- ==== Proof.KernelRow.lean ====
/-
  One grid point's arithmetic, read at an element.

  The kernel's body works on a block of 2000 nodes. For row `p` of the block it forms the gate from the lane sum
  of the row's features times the gate vector, mixes the row's two neighbour signals with it, multiplies the
  mixed row into the transposed weight matrix on the matrix unit, adds the bias and clips at zero. Read at
  element `(p, q)` at the exact instance — where a change of float format is the identity, a lane sum is the sum
  over the lane index, and a matrix product into a zero accumulator is the sum over the contraction index — the
  value stored into the first output is `GatedMix.layer` of row `p` of the three node blocks, and the value
  stored into the second output at `(p, 0)` is `GatedMix.gate` of row `p`.
-/
import proofs.«104545_j10213432229976_1_alg».proof.Proof.Gen.KernelIdeal.Skeleton
import proofs.«104545_j10213432229976_1_alg».proof.Proof.GatedMix
import Idealize.ShloMosaic.Lib.ValueIdx
import Idealize.ShloMosaic.Lib.Pipeline.Value
import Idealize.ShloMosaic.PureOps.Ideal.Laws

noncomputable section

open scoped BigOperators

namespace Cert.KernelIdeal.Row

open Idealize.ShloMosaic Idealize.ShloMosaic.ValueIdx Cert.KernelIdeal Cert.KernelIdeal.Gen Cert.GatedMix

/-! ## The body's layout operations read at an element -/

section Layout
variable {α : Type}

/-- A column [2000,1] broadcast along the features reads its row's one entry. -/
theorem bcastCol (y : S2000x1.Idx → α) (p : Fin 2000) (k : Fin 128) :
    broadcastTo S2000x128 y broadcasts_S2000x1_S2000x128 (ix2 p k) = y (ix2 p 0) :=
  broadcastTo_apply y broadcasts_S2000x1_S2000x128 (ix2 p k) (ix2 p 0) (fun a => match a with
    | ⟨0, _⟩ => by show p.val = if (2000 : Nat) = 1 then 0 else p.val; rw [if_neg (by decide)]
    | ⟨1, _⟩ => by show 0 = if (1 : Nat) = 1 then 0 else k.val; rw [if_pos rfl])

/-- A row [1,128] broadcast along the nodes reads its feature's one entry. -/
theorem bcastRow (y : S1x128.Idx → α) (p : Fin 2000) (k : Fin 128) :
    broadcastTo S2000x128 y broadcasts_S1x128_S2000x128 (ix2 p k) = y (ix2 0 k) :=
  broadcastTo_apply y broadcasts_S1x128_S2000x128 (ix2 p k) (ix2 0 k) (fun a => match a with
    | ⟨0, _⟩ => by show 0 = if (1 : Nat) = 1 then 0 else p.val; rw [if_pos rfl]
    | ⟨1, _⟩ => by show k.val = if (128 : Nat) = 1 then 0 else k.val; rw [if_neg (by decide)])

/-- The [1,1] offset broadcast down a column reads its one entry. -/
theorem bcastUnit (y : S1x1.Idx → α) (p : Fin 2000) :
    broadcastTo S2000x1 y broadcasts_S1x1_S2000x1 (ix2 p 0) = y (ix2 0 0) :=
  broadcastTo_apply y broadcasts_S1x1_S2000x1 (ix2 p 0) (ix2 0 0) (fun a => match a with
    | ⟨0, _⟩ => by show 0 = if (1 : Nat) = 1 then 0 else p.val; rw [if_pos rfl]
    | ⟨1, _⟩ => by show 0 = if (1 : Nat) = 1 then 0 else 0; rw [if_pos rfl])

/-- A vector of 2000 entries recast as a column keeps entry `p` at `(p, 0)`. -/
theorem castCol (y : S2000.Idx → α) (p : Fin 2000) :
    shapeCast S2000x1 y shapeCasts_S2000_S2000x1 (ix2 p 0) = y (ix1 p) :=
  shapeCast_apply y shapeCasts_S2000_S2000x1 (ix2 p 0) (ix1 p)
    (by rw [Shape.rowMajor_val_one, Shape.rowMajor_val_two]; show p.val = p.val * 1 + 0; omega)

/-- The transposed weight matrix at `(k, q)` is the matrix at `(q, k)`. -/
theorem transposeAt (y : S128x128.Idx → α) (k q : Fin 128) :
    transpose S128x128 [1, 0] y transposes_S128x128_p1_0_S128x128 (ix2 k q) = y (ix2 q k) :=
  transpose_apply [1, 0] y transposes_S128x128_p1_0_S128x128 (ix2 k q) (ix2 q k) (fun b => match b with
    | ⟨0, _⟩ => rfl
    | ⟨1, _⟩ => rfl)

end Layout

/-! ## The lane sum and the matrix product read at an element -/

/-- The lane sum of a [2000,128] block at row `p` is the sum of the row. -/
theorem rowSum (P : FVec Ideal S2000x128 .f32) (p : Fin 2000) :
    multiReduction (F := Ideal) .add [1] S2000 P 0x00000000#32 reduces_S2000x128_S2000 (.inl rfl) rfl (ix1 p)
      = ∑ k : Fin 128, P (ix2 p k) := by
  refine (Ideal.multiReduction_add_single P 0x00000000#32 reduces_S2000x128_S2000 (.inl rfl) rfl (ix1 p)).trans ?_
  refine Finset.sum_congr rfl fun k _ => congrArg P (funext fun a => Fin.ext ?_)
  match a with
  | ⟨0, _⟩ => rfl
  | ⟨1, _⟩ => rfl

theorem lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix unit's product of a [2000,128] block with a [128,128] matrix, accumulated from zero, at `(p, q)`:
    the sum over the contracted feature `k` of the block at `(p, k)` times the matrix at `(k, q)`. -/
theorem matmulAt (a : FVec Ideal S2000x128 .bf16) (w : FVec Ideal S128x128 .bf16) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) := by
  refine (Ideal.matmul_constant_zero_apply dot_S2000x128_S128x128_S2000x128_1_0_0_1_n_n none a w (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs0 _ _
    | ⟨1, _⟩ => exact (lhs1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs0 _ _).trans hk
    | ⟨1, _⟩ => exact rhs1 _ _)
  rw [el, er]

/-! ## The two stored values read at an element -/

/-- The value stored into the gate output at `(p, 0)` is the gate of row `p`. -/
theorem pay1_at (v0 : FVec Ideal S2000x128 .f32) (v5 : FVec Ideal S1x128 .f32) (v6 : FVec Ideal S1x1 .f32) (p : Fin 2000) :
    k0_pay1 (F := Ideal) v0 v5 v6 (ix2 p 0) = gate (fun k => v0 (ix2 p k)) (fun k => v5 (ix2 0 k)) (v6 (ix2 0 0)) := by
  have hsum : (multiReduction (F := Ideal) .add [1] S2000 (mulf v0 (broadcastTo S2000x128 v5 broadcasts_S1x128_S2000x128)) 0x00000000#32 reduces_S2000x128_S2000 (.inl rfl) rfl) (ix1 p)
      = ∑ k : Fin 128, v0 (ix2 p k) * v5 (ix2 0 k) := by
    refine (rowSum _ p).trans (Finset.sum_congr rfl fun k _ => ?_)
    show v0 (ix2 p k) * (broadcastTo S2000x128 v5 broadcasts_S1x128_S2000x128) (ix2 p k) = _
    rw [bcastRow]
  unfold k0_pay1 gate logit
  show Ideal.logistic ((shapeCast S2000x1 _ shapeCasts_S2000_S2000x1) (ix2 p 0)
    + (broadcastTo S2000x1 (shapeCast S1x1 v6 shapeCasts_S1x1_S1x1) broadcasts_S1x1_S2000x1) (ix2 p 0)) = _
  rw [castCol, bcastUnit, shapeCast_self, hsum]

/-- The value stored into the layer output at `(p, q)` is the layer's output feature `q` of row `p`. -/
theorem pay2_at (v0 v1 v3 : FVec Ideal S2000x128 .f32) (v5 : FVec Ideal S1x128 .f32) (v6 : FVec Ideal S1x1 .f32)
    (v8 : FVec Ideal S128x128 .f32) (v9 : FVec Ideal S1x128 .f32) (p : Fin 2000) (q : Fin 128) :
    k0_pay2 (F := Ideal) v0 v1 v3 v5 v6 v8 v9 (ix2 p q)
      = layer (Ideal.ofBits .f32 0x3F800000#32) (Ideal.ofBits .f32 0x00000000#32) (fun k => v0 (ix2 p k)) (fun k => v1 (ix2 p k)) (fun k => v3 (ix2 p k))
          (fun k => v5 (ix2 0 k)) (v6 (ix2 0 0)) (fun j k => v8 (ix2 j k)) (fun j => v9 (ix2 0 j)) q := by
  -- the mixed row, before it is narrowed for the matrix unit
  have hmix : ∀ k : Fin 128,
      (addf (mulf (broadcastTo S2000x128 (k0_pay1 (F := Ideal) v0 v5 v6) broadcasts_S2000x1_S2000x128) (shapeCast S2000x128 v1 shapeCasts_S2000x128_S2000x128))
        (mulf (broadcastTo S2000x128 (subf (broadcast S2000x1 (Scalar.ofBits (F := Ideal) .f32 0x3F800000#32)) (k0_pay1 (F := Ideal) v0 v5 v6)) broadcasts_S2000x1_S2000x128) (shapeCast S2000x128 v3 shapeCasts_S2000x128_S2000x128))) (ix2 p k)
      = mix (Ideal.ofBits .f32 0x3F800000#32) (fun k => v0 (ix2 p k)) (fun k => v1 (ix2 p k)) (fun k => v3 (ix2 p k)) (fun k => v5 (ix2 0 k)) (v6 (ix2 0 0)) k := by
    intro k
    unfold mix
    show (broadcastTo S2000x128 (k0_pay1 (F := Ideal) v0 v5 v6) broadcasts_S2000x1_S2000x128) (ix2 p k) * (shapeCast S2000x128 v1 shapeCasts_S2000x128_S2000x128) (ix2 p k)
      + (broadcastTo S2000x128 (subf (broadcast S2000x1 (Scalar.ofBits (F := Ideal) .f32 0x3F800000#32)) (k0_pay1 (F := Ideal) v0 v5 v6)) broadcasts_S2000x1_S2000x128) (ix2 p k) * (shapeCast S2000x128 v3 shapeCasts_S2000x128_S2000x128) (ix2 p k) = _
    rw [bcastCol, bcastCol, shapeCast_self, shapeCast_self]
    show k0_pay1 (F := Ideal) v0 v5 v6 (ix2 p 0) * v1 (ix2 p k) + ((Ideal.ofBits .f32 0x3F800000#32) - k0_pay1 (F := Ideal) v0 v5 v6 (ix2 p 0)) * v3 (ix2 p k) = _
    rw [pay1_at]
  unfold k0_pay2 layer
  show max ((matmul dot_S2000x128_S128x128_S2000x128_1_0_0_1_n_n none (truncf .bf16 (addf (mulf (broadcastTo S2000x128 (k0_pay1 (F := Ideal) v0 v5 v6) broadcasts_S2000x1_S2000x128) (shapeCast S2000x128 v1 shapeCasts_S2000x128_S2000x128))
        (mulf (broadcastTo S2000x128 (subf (broadcast S2000x1 (Scalar.ofBits (F := Ideal) .f32 0x3F800000#32)) (k0_pay1 (F := Ideal) v0 v5 v6)) broadcasts_S2000x1_S2000x128) (shapeCast S2000x128 v3 shapeCasts_S2000x128_S2000x128))) bitsLt_bf16_f32)
        (transpose S128x128 [1, 0] (truncf .bf16 v8 bitsLt_bf16_f32) transposes_S128x128_p1_0_S128x128) (constant (F := Ideal) S2000x128 .f32 0x00000000#32)) (ix2 p q)
      + (broadcastTo S2000x128 (shapeCast S1x128 v9 shapeCasts_S1x128_S1x128) broadcasts_S1x128_S2000x128) (ix2 p q)) (Ideal.ofBits .f32 0x00000000#32) = _
  rw [matmulAt, bcastRow, shapeCast_self v9]
  refine congrArg (fun s => max (s + v9 (ix2 0 q)) (Ideal.ofBits .f32 0x00000000#32)) (Finset.sum_congr rfl fun k _ => ?_)
  rw [transposeAt]
  exact congrArg (· * v8 (ix2 q k)) (hmix k)

end Cert.KernelIdeal.Row

end
-- ==== Proof.KernelPrefix.lean ====
/-
  What the kernel's region finds in the arrays the host computed before it.

  Before the one kernel launch the host aggregates the neighbour signals twice — each edge's weight times the
  feature row of the edge's source node (a negative index wrapped by the array length, as array indexing does),
  summed into the edge's target row of a zero array — and recasts the gate offset [1] as [1,1] and the bias [128]
  as [1,128]. The aggregation is named once, `aggregate`, and never opened: the reference performs the same
  operations on the same arguments.
-/
import proofs.«104545_j10213432229976_1_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.Prefix

open Idealize.ShloMosaic Idealize.ShloMosaic.TcCoe Idealize.SL.Sem Idealize.ShloMosaic.ValueIdx
open Cert.KernelIdeal Cert.KernelIdeal.Gen

variable {F : FTy → Type} [FloatOps F]

/-- The sparse aggregation as the host computes it: `rows`, `cols`, `vals` list the edges; the result's row `r` is the
    sum over the edges with target `r` of the edge's weight times the feature row of its source. -/
def aggregate (x : (⟨S50000x128, .f32⟩ : BufTy).Contents (Elt F)) (rows cols : (⟨S800000, .i32⟩ : BufTy).Contents (Elt F))
    (vals : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 rows)
    (mulf (broadcastInDim S800000x128 ![0, 1] bcast_S800000x1_S800000x128_0_1 (broadcastInDim S800000x1 ![0] bcast_S800000_S800000x1_0 vals))
      (Host.gather gather_S50000x128_S800000x1_S800000x128_1_0_n_n_0_1_1128 x
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols))))

variable (m : (ℓ : Loc nD τ sig) → Buf (Elt F) ℓ)

/-- The first aggregated array the region stages: over the first edge list. -/
theorem V_lp (c : Dev nD) :
    (V m c main_v12 : (⟨S50000x128, .f32⟩ : BufTy).Contents (Elt F))
      = aggregate (m ((c : Thread nD τ).loc main_arg0)) (m ((c : Thread nD τ).loc main_arg1)) (m ((c : Thread nD τ).loc main_arg2)) (m ((c : Thread nD τ).loc main_arg3)) := by
  dsimp only [Gen.V, Gen.hostOps0]
  after_results_simp <;> rfl

/-- The second aggregated array the region stages: over the second edge list. -/
theorem V_hp (c : Dev nD) :
    (V m c main_v25 : (⟨S50000x128, .f32⟩ : BufTy).Contents (Elt F))
      = aggregate (m ((c : Thread nD τ).loc main_arg0)) (m ((c : Thread nD τ).loc main_arg4)) (m ((c : Thread nD τ).loc main_arg5)) (m ((c : Thread nD τ).loc main_arg6)) := by
  dsimp only [Gen.V, Gen.hostOps0]
  after_results_simp <;> rfl

/-- The gate offset as the region finds it: the one entry of the argument, at `(0, 0)`. -/
theorem V_offset (c : Dev nD) :
    (V m c main_v26 : (⟨S1x1, .f32⟩ : BufTy).Contents (Elt F)) (ix2 0 0) = (m ((c : Thread nD τ).loc main_arg8)) (ix1 0) := by
  have e : (V m c main_v26 : (⟨S1x1, .f32⟩ : BufTy).Contents (Elt F))
      = shapeCast S1x1 (m ((c : Thread nD τ).loc main_arg8)) shapeCasts_S1_S1x1 := by
    dsimp only [Gen.V, Gen.hostOps0]
    after_results
    rfl
  rw [e]
  exact shapeCast_apply _ shapeCasts_S1_S1x1 (ix2 0 0) (ix1 0) (by rw [Shape.rowMajor_val_one, Shape.rowMajor_val_two]; rfl)

/-- The bias as the region finds it: entry `j` of the argument, at `(0, j)`. -/
theorem V_bias (c : Dev nD) (j : Fin 128) :
    (V m c main_v27 : (⟨S1x128, .f32⟩ : BufTy).Contents (Elt F)) (ix2 0 j) = (m ((c : Thread nD τ).loc main_arg10)) (ix1 j) := by
  have e : (V m c main_v27 : (⟨S1x128, .f32⟩ : BufTy).Contents (Elt F))
      = shapeCast S1x128 (m ((c : Thread nD τ).loc main_arg10)) shapeCasts_S128_S1x128 := by
    dsimp only [Gen.V, Gen.hostOps0]
    after_results
    rfl
  rw [e]
  exact shapeCast_apply _ shapeCasts_S128_S1x128 (ix2 0 j) (ix1 j) (by rw [Shape.rowMajor_val_one, Shape.rowMajor_val_two]; show j.val = 0 * 128 + j.val; omega)

end Cert.KernelIdeal.Prefix

end
-- ==== Proof.LayerArrays.lean ====
/-
  The two result arrays as whole-array functions of the operand arrays, at the exact instance.

  For node features `X` [50000,128], the two aggregated neighbour arrays `ZL`, `ZH` [50000,128], the gate vector
  `θ` [1,128] with offset `β`, the weights `W` [128,128] and the bias `b`: row `r` of the layer output is
  `GatedMix.layer` of row `r` of `X`, `ZL`, `ZH`, and entry `(r, 0)` of the gate output is `GatedMix.gate` of row `r`
  of `X`. The constants 1.0 and 0.0 are the f32 words both programs write for them.
-/
import proofs.«104545_j10213432229976_1_alg».proof.Proof.GatedMix
import Idealize.ShloMosaic.Lib.ValueIdx

noncomputable section

namespace Cert.GatedMix

open Idealize.ShloMosaic Idealize.ShloMosaic.ValueIdx

/-- The f32 word of 1.0, as both programs write it. -/
abbrev one : EReal := Ideal.ofBits .f32 0x3F800000#32
/-- The f32 word of 0.0, as both programs write it. -/
abbrev zero : EReal := Ideal.ofBits .f32 0x00000000#32

/-- Row `r` of a [n,128] array, as a family over the feature index. -/
abbrev rowOf {n : Nat} (X : (⟨2, ![n, 128]⟩ : Shape).Idx → EReal) (r : Fin n) : Fin 128 → EReal := fun k => X (ix2 r k)

/-- The gate of node `r`. -/
def gateAt (X : (⟨2, ![50000, 128]⟩ : Shape).Idx → EReal) (θ : (⟨2, ![1, 128]⟩ : Shape).Idx → EReal) (β : EReal)
    (r : Fin 50000) : EReal :=
  gate (rowOf X r) (rowOf θ 0) β

/-- The layer's output at node `r`, feature `j`. -/
def layerAt (X ZL ZH : (⟨2, ![50000, 128]⟩ : Shape).Idx → EReal) (θ : (⟨2, ![1, 128]⟩ : Shape).Idx → EReal) (β : EReal)
    (W : (⟨2, ![128, 128]⟩ : Shape).Idx → EReal) (b : Fin 128 → EReal) (r : Fin 50000) (j : Fin 128) : EReal :=
  layer one zero (rowOf X r) (rowOf ZL r) (rowOf ZH r) (rowOf θ 0) β (fun j k => W (ix2 j k)) b j

/-- The gate output array [50000,1]. -/
def gateArr (X : (⟨2, ![50000, 128]⟩ : Shape).Idx → EReal) (θ : (⟨2, ![1, 128]⟩ : Shape).Idx → EReal) (β : EReal) :
    (⟨2, ![50000, 1]⟩ : Shape).Idx → EReal :=
  fun i => gateAt X θ β ⟨(i 0).val, idx2_lt0 i⟩

/-- The layer output array [50000,128]. -/
def layerArr (X ZL ZH : (⟨2, ![50000, 128]⟩ : Shape).Idx → EReal) (θ : (⟨2, ![1, 128]⟩ : Shape).Idx → EReal) (β : EReal)
    (W : (⟨2, ![128, 128]⟩ : Shape).Idx → EReal) (b : Fin 128 → EReal) : (⟨2, ![50000, 128]⟩ : Shape).Idx → EReal :=
  fun i => layerAt X ZL ZH θ β W b ⟨(i 0).val, idx2_lt0 i⟩ ⟨(i 1).val, idx2_lt1 i⟩

theorem gateArr_ix2 (X : (⟨2, ![50000, 128]⟩ : Shape).Idx → EReal) (θ : (⟨2, ![1, 128]⟩ : Shape).Idx → EReal) (β : EReal)
    (r : Fin 50000) (z : Fin 1) : gateArr X θ β (ix2 r z) = gateAt X θ β r := rfl

theorem layerArr_ix2 (X ZL ZH : (⟨2, ![50000, 128]⟩ : Shape).Idx → EReal) (θ : (⟨2, ![1, 128]⟩ : Shape).Idx → EReal) (β : EReal)
    (W : (⟨2, ![128, 128]⟩ : Shape).Idx → EReal) (b : Fin 128 → EReal) (r : Fin 50000) (j : Fin 128) :
    layerArr X ZL ZH θ β W b (ix2 r j) = layerAt X ZL ZH θ β W b r j := rfl

end Cert.GatedMix

end
-- ==== Proof.KernelArrays.lean ====
/-
  From the blocks each grid point writes to the two whole result arrays.

  Grid point `t` of the 25 works on rows 2000·t … 2000·t + 1999 of the node arrays (the features and the two
  aggregated neighbour arrays) and on the whole gate vector, offset, weights and bias, and writes back the same
  rows of the two results. So what it writes is block `t` of one whole-array function of the arrays as the
  region finds them — `GatedMix.layerArr` for the first result, `GatedMix.gateArr` for the second —, the 25
  blocks tile the arrays, and after the run the arrays hold those functions. The arrays the region finds are
  the arguments themselves, the two host aggregations, and the offset and bias recast.
-/
import proofs.«104545_j10213432229976_1_alg».proof.Proof.KernelIdealValue
import proofs.«104545_j10213432229976_1_alg».proof.Proof.KernelRow
import proofs.«104545_j10213432229976_1_alg».proof.Proof.KernelPrefix
import proofs.«104545_j10213432229976_1_alg».proof.Proof.LayerArrays

noncomputable section

open scoped BigOperators

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.ValueP Cert.KernelIdeal.Row Cert.KernelIdeal.Prefix Cert.GatedMix

/-! ## Congruences of the layer's functions in their row arguments -/

theorem gate_congr {D : Nat} {x x' θ θ' : Fin D → EReal} {β β' : EReal} (hx : x = x') (hθ : θ = θ') (hβ : β = β') :
    gate x θ β = gate x' θ' β' := by subst hx hθ hβ; rfl

theorem layer_congr {D E : Nat} {u z : EReal} {x x' zl zl' zh zh' θ θ' : Fin D → EReal} {β β' : EReal}
    {W W' : Fin E → Fin D → EReal} {b b' : Fin E → EReal} (j : Fin E) (hx : x = x') (hl : zl = zl') (hh : zh = zh')
    (hθ : θ = θ') (hβ : β = β') (hW : W = W') (hb : b = b') :
    layer u z x zl zh θ β W b j = layer u z x' zl' zh' θ' β' W' b' j := by
  subst hx hl hh hθ hβ hW hb; rfl

variable (m : (ℓ : Loc nD τ sig) → Buf (Elt Ideal) ℓ) (ρ : Dev nD → PrngReg)

-- what the region finds in an array is the fold of the host's operations over the launch memory: it is cited here by
-- name and through the lemmas about it, never computed
attribute [local irreducible] StableHlo.after

theorem hz : (![0, 0] : Fin 2 → Nat) = fun _ => 0 := funext fun a => by fin_cases a <;> rfl

/-! ## Which block each window is on at a grid point -/

/-- The printed index maps, decided over the 25 points: the node windows and the two results are on row block `t`,
    the gate vector, offset, weights and bias on their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The node that row `p` of grid point `t`'s block is. -/
def nodeOf (t : Fin cfg0.N) (p : Fin 2000) : Fin 50000 :=
  ⟨t.val * 2000 + p.val, by
    have ht : t.val < 25 := lt_of_lt_of_eq t.isLt N_0
    have hp : p.val < 2000 := p.isLt
    omega⟩

/-! ## A window's block read off its array

  Stated for ANY contents `A` of the window's array, so that the contents the region actually finds — the results of
  the host's operations — are never opened here. -/

/-- Row `p` of the features' block at point `t` is the array's row of node `2000·t + p`. -/
theorem read_x (c : Dev nD) (t : Fin cfg0.N) (A : Buf (Elt Ideal) ((c : Thread nD τ).loc main_arg0)) (p : Fin 2000) (k : Fin 128) :
    ((cfg0.win 0).blk t).view.read (Elt Ideal) A (ix2 p k) = (A : S50000x128.Idx → EReal) (ix2 (nodeOf t p) k) := by
  obtain ⟨e00, e01, e10, e11, e20, e21, e70, e71, e80, e81, e30, e31, e40, e41, e50, e51, e60, e61⟩ := idx_facts t
  show A (((cfg0.win 0).blk t).view.emb (ix2 p k)) = _
  refine congrArg A (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- The same for the first aggregated array. -/
theorem read_zl (c : Dev nD) (t : Fin cfg0.N) (A : Buf (Elt Ideal) ((c : Thread nD τ).loc main_v12)) (p : Fin 2000) (k : Fin 128) :
    ((cfg0.win 1).blk t).view.read (Elt Ideal) A (ix2 p k) = (A : S50000x128.Idx → EReal) (ix2 (nodeOf t p) k) := by
  obtain ⟨e00, e01, e10, e11, e20, e21, e70, e71, e80, e81, e30, e31, e40, e41, e50, e51, e60, e61⟩ := idx_facts t
  show A (((cfg0.win 1).blk t).view.emb (ix2 p k)) = _
  refine congrArg A (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

/-- The same for the second aggregated array. -/
theorem read_zh (c : Dev nD) (t : Fin cfg0.N) (A : Buf (Elt Ideal) ((c : Thread nD τ).loc main_v25)) (p : Fin 2000) (k : Fin 128) :
    ((cfg0.win 2).blk t).view.read (Elt Ideal) A (ix2 p k) = (A : S50000x128.Idx → EReal) (ix2 (nodeOf t p) k) := by
  obtain ⟨e00, e01, e10, e11, e20, e21, e70, e71, e80, e81, e30, e31, e40, e41, e50, e51, e60, e61⟩ := idx_facts t
  show A (((cfg0.win 2).blk t).view.emb (ix2 p k)) = _
  refine congrArg A (funext fun a => Fin.ext ?_)
  match a with
  | ⟨0, _⟩ => show win0_2.index t (0 : Fin 2) * 2000 + 1 * p.val = t.val * 2000 + p.val; omega
  | ⟨1, _⟩ => show win0_2.index t (1 : Fin 2) * 128 + 1 * k.val = k.val; omega

/-- The gate vector's one block is the gate vector. -/
theorem read_theta (c : Dev nD) (t : Fin cfg0.N) (A : Buf (Elt Ideal) ((c : Thread nD τ).loc main_arg7)) (a : Fin 1) (b : Fin 128) :
    ((cfg0.win 3).blk t).view.read (Elt Ideal) A (ix2 a b) = (A : S1x128.Idx → EReal) (ix2 a b) := by
  obtain ⟨e00, e01, e10, e11, e20, e21, e70, e71, e80, e81, e30, e31, e40, e41, e50, e51, e60, e61⟩ := idx_facts t
  show A (((cfg0.win 3).blk t).view.emb (ix2 a b)) = _
  refine congrArg A (funext fun d => Fin.ext ?_)
  match d with
  | ⟨0, _⟩ => show win0_3.index t (0 : Fin 2) * 1 + 1 * a.val = a.val; omega
  | ⟨1, _⟩ => show win0_3.index t (1 : Fin 2) * 128 + 1 * b.val = b.val; omega

/-- The offset's one block is the offset. -/
theorem read_offset (c : Dev nD) (t : Fin cfg0.N) (A : Buf (Elt Ideal) ((c : Thread nD τ).loc main_v26)) (a : Fin 1) (b : Fin 1) :
    ((cfg0.win 4).blk t).view.read (Elt Ideal) A (ix2 a b) = (A : S1x1.Idx → EReal) (ix2 a b) := by
  obtain ⟨e00, e01, e10, e11, e20, e21, e70, e71, e80, e81, e30, e31, e40, e41, e50, e51, e60, e61⟩ := idx_facts t
  show A (((cfg0.win 4).blk t).view.emb (ix2 a b)) = _
  refine congrArg A (funext fun d => Fin.ext ?_)
  match d with
  | ⟨0, _⟩ => show win0_4.index t (0 : Fin 2) * 1 + 1 * a.val = a.val; omega
  | ⟨1, _⟩ => show win0_4.index t (1 : Fin 2) * 1 + 1 * b.val = b.val; omega

/-- The weights' one block is the weight matrix. -/
theorem read_w (c : Dev nD) (t : Fin cfg0.N) (A : Buf (Elt Ideal) ((c : Thread nD τ).loc main_arg9)) (a : Fin 128) (b : Fin 128) :
    ((cfg0.win 5).blk t).view.read (Elt Ideal) A (ix2 a b) = (A : S128x128.Idx → EReal) (ix2 a b) := by
  obtain ⟨e00, e01, e10, e11, e20, e21, e70, e71, e80, e81, e30, e31, e40, e41, e50, e51, e60, e61⟩ := idx_facts t
  show A (((cfg0.win 5).blk t).view.emb (ix2 a b)) = _
  refine congrArg A (funext fun d => Fin.ext ?_)
  match d with
  | ⟨0, _⟩ => show win0_5.index t (0 : Fin 2) * 128 + 1 * a.val = a.val; omega
  | ⟨1, _⟩ => show win0_5.index t (1 : Fin 2) * 128 + 1 * b.val = b.val; omega

/-- The bias's one block is the bias. -/
theorem read_bias (c : Dev nD) (t : Fin cfg0.N) (A : Buf (Elt Ideal) ((c : Thread nD τ).loc main_v27)) (a : Fin 1) (b : Fin 128) :
    ((cfg0.win 6).blk t).view.read (Elt Ideal) A (ix2 a b) = (A : S1x128.Idx → EReal) (ix2 a b) := by
  obtain ⟨e00, e01, e10, e11, e20, e21, e70, e71, e80, e81, e30, e31, e40, e41, e50, e51, e60, e61⟩ := idx_facts t
  show A (((cfg0.win 6).blk t).view.emb (ix2 a b)) = _
  refine congrArg A (funext fun d => Fin.ext ?_)
  match d with
  | ⟨0, _⟩ => show win0_6.index t (0 : Fin 2) * 1 + 1 * a.val = a.val; omega
  | ⟨1, _⟩ => show win0_6.index t (1 : Fin 2) * 128 + 1 * b.val = b.val; omega

/-! ## What each point writes back -/

/-- Point `t` writes back block `t` of the layer array of the arrays the region finds. -/
theorem flushed7_eq (c : Dev nD) (t : Fin cfg0.N) :
    (dats m 0 c).flushed 7 t = ((cfg0.win 7).blk t).view.read (Elt Ideal) (layerArr (V m c main_arg0) (V m c main_v12) (V m c main_v25) (V m c main_arg7) ((V m c main_v26 : S1x1.Idx → EReal) (ix2 0 0)) (V m c main_arg9) (fun j => (V m c main_v27 : S1x128.Idx → EReal) (ix2 0 j))) := by
  obtain ⟨e00, e01, e10, e11, e20, e21, e70, e71, e80, e81, e30, e31, e40, e41, e50, e51, e60, e61⟩ := idx_facts t
  rw [flushed7]
  unfold out0_7
  rw [View.canon_unit_zero hz]
  simp only [View.ld_unit_zero (S := S2000x128) hz, View.ld_unit_zero (S := S1x128) hz, View.ld_unit_zero (S := S1x1) hz, View.ld_unit_zero (S := S128x128) hz]
  funext y
  obtain ⟨p, q, rfl⟩ : ∃ (p : Fin 2000) (q : Fin 128), y = ix2 p q := ⟨y 0, y 1, eq_ix2 y⟩
  show k0_pay2 (F := Ideal) (iblk m c 0 t) (iblk m c 1 t) (iblk m c 2 t) (iblk m c 3 t) (iblk m c 4 t) (iblk m c 5 t) (iblk m c 6 t) (ix2 p q) = layerArr (V m c main_arg0) (V m c main_v12) (V m c main_v25) (V m c main_arg7) ((V m c main_v26 : S1x1.Idx → EReal) (ix2 0 0)) (V m c main_arg9) (fun j => (V m c main_v27 : S1x128.Idx → EReal) (ix2 0 j)) (((cfg0.win 7).blk t).view.emb (ix2 p q))
  have hemb : ((cfg0.win 7).blk t).view.emb (ix2 p q) = ix2 (nodeOf t p) q := funext fun a => Fin.ext (by
    match a with
    | ⟨0, _⟩ => show win0_7.index t (0 : Fin 2) * 2000 + 1 * p.val = t.val * 2000 + p.val; omega
    | ⟨1, _⟩ => show win0_7.index t (1 : Fin 2) * 128 + 1 * q.val = q.val; omega)
  rw [hemb, layerArr_ix2]
  refine (pay2_at (iblk m c 0 t) (iblk m c 1 t) (iblk m c 2 t) (iblk m c 3 t) (iblk m c 4 t) (iblk m c 5 t) (iblk m c 6 t) p q).trans ?_
  unfold layerAt
  exact layer_congr q (funext fun k => read_x c t (V m c main_arg0) p k) (funext fun k => read_zl c t (V m c main_v12) p k)
    (funext fun k => read_zh c t (V m c main_v25) p k) (funext fun k => read_theta c t (V m c main_arg7) 0 k)
    (read_offset c t (V m c main_v26) 0 0) (funext fun j => funext fun k => read_w c t (V m c main_arg9) j k)
    (funext fun j => read_bias c t (V m c main_v27) 0 j)

/-- Point `t` writes back block `t` of the gate array of the arrays the region finds. -/
theorem flushed8_eq (c : Dev nD) (t : Fin cfg0.N) :
    (dats m 0 c).flushed 8 t = ((cfg0.win 8).blk t).view.read (Elt Ideal) (gateArr (V m c main_arg0) (V m c main_arg7) ((V m c main_v26 : S1x1.Idx → EReal) (ix2 0 0))) := by
  obtain ⟨e00, e01, e10, e11, e20, e21, e70, e71, e80, e81, e30, e31, e40, e41, e50, e51, e60, e61⟩ := idx_facts t
  rw [flushed8]
  unfold out0_8
  rw [View.canon_unit_zero hz]
  simp only [View.ld_unit_zero (S := S2000x128) hz, View.ld_unit_zero (S := S1x128) hz, View.ld_unit_zero (S := S1x1) hz]
  funext y
  obtain ⟨p, z, rfl⟩ : ∃ (p : Fin 2000) (z : Fin 1), y = ix2 p z := ⟨y 0, y 1, eq_ix2 y⟩
  obtain rfl : z = 0 := Subsingleton.elim _ _
  show k0_pay1 (F := Ideal) (iblk m c 0 t) (iblk m c 3 t) (iblk m c 4 t) (ix2 p 0) = gateArr (V m c main_arg0) (V m c main_arg7) ((V m c main_v26 : S1x1.Idx → EReal) (ix2 0 0)) (((cfg0.win 8).blk t).view.emb (ix2 p 0))
  have hemb : ((cfg0.win 8).blk t).view.emb (ix2 p (0 : Fin 1)) = ix2 (nodeOf t p) (0 : Fin 1) := funext fun a => Fin.ext (by
    match a with
    | ⟨0, _⟩ => show win0_8.index t (0 : Fin 2) * 2000 + 1 * p.val = t.val * 2000 + p.val; omega
    | ⟨1, _⟩ => show win0_8.index t (1 : Fin 2) * 1 + 1 * 0 = 0; omega)
  rw [hemb, gateArr_ix2]
  refine (pay1_at (iblk m c 0 t) (iblk m c 3 t) (iblk m c 4 t) p).trans ?_
  unfold gateAt
  exact gate_congr (funext fun k => read_x c t (V m c main_arg0) p k) (funext fun k => read_theta c t (V m c main_arg7) 0 k)
    (read_offset c t (V m c main_v26) 0 0)

/-! ## The blocks tile the arrays -/

/-- An index of the array lies in point `t`'s block of output 1 iff each coordinate lies in the block's range. -/
theorem mem_blk7 (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v28_0).slice (win0_7.rect t)).set ↔ _
  rw [View.set_slice_whole, Rect.mem_set_unit]
  exact Iff.rfl

/-- Every index of the array lies in the block of the point its row falls to: the 25 blocks of 2000 rows tile the 50000 rows. -/
theorem cover7 (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  obtain ⟨e00, e01, e10, e11, e20, e21, e70, e71, e80, e81, e30, e31, e40, e41, e50, e51, e60, e61⟩ := idx_facts t
  refine ⟨t, flush0_7 t, ?_⟩
  rw [mem_blk7]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- An index of the array lies in point `t`'s block of output 2 iff each coordinate lies in the block's range. -/
theorem mem_blk8 (t : Fin cfg0.N) (i : S50000x1.Idx) :
    i ∈ ((cfg0.win 8).blk t).view.set ↔ ∀ a : Fin 2, win0_8.index t a * S2000x1.size a ≤ (i a).val ∧ (i a).val < win0_8.index t a * S2000x1.size a + S2000x1.size a := by
  show i ∈ ((View.whole main_v28_1).slice (win0_8.rect t)).set ↔ _
  rw [View.set_slice_whole, Rect.mem_set_unit]
  exact Iff.rfl

/-- Every index of the array lies in the block of the point its row falls to: the 25 blocks of 2000 rows tile the 50000 rows. -/
theorem cover8 (i : S50000x1.Idx) : ∃ t : Fin cfg0.N, (cfg0.win 8).flush t = true ∧ i ∈ ((cfg0.win 8).blk t).view.set := by
  have hi0 : (i 0).val < 50000 := (i 0).isLt
  have hi1 : (i 1).val < 1 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  obtain ⟨e00, e01, e10, e11, e20, e21, e70, e71, e80, e81, e30, e31, e40, e41, e50, e51, e60, e61⟩ := idx_facts t
  refine ⟨t, flush0_8 t, ?_⟩
  rw [mem_blk8]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 1 ≤ (i 1).val ∧ (i 1).val < win0_8.index t (1 : Fin 2) * 1 + 1; omega

/-! ## The arrays after the run, and the run -/

/-- The layer array of the ARGUMENTS: the features, the two aggregations of them over the two edge lists, the gate
    vector and offset, the weights and the bias. -/
def layerOut (c : Dev nD) : S50000x128.Idx → EReal :=
  layerArr (m ((c : Thread nD τ).loc main_arg0))
    (aggregate (m ((c : Thread nD τ).loc main_arg0)) (m ((c : Thread nD τ).loc main_arg1)) (m ((c : Thread nD τ).loc main_arg2)) (m ((c : Thread nD τ).loc main_arg3)))
    (aggregate (m ((c : Thread nD τ).loc main_arg0)) (m ((c : Thread nD τ).loc main_arg4)) (m ((c : Thread nD τ).loc main_arg5)) (m ((c : Thread nD τ).loc main_arg6)))
    (m ((c : Thread nD τ).loc main_arg7)) ((m ((c : Thread nD τ).loc main_arg8)) (ix1 0)) (m ((c : Thread nD τ).loc main_arg9)) (fun j => (m ((c : Thread nD τ).loc main_arg10)) (ix1 j))

/-- The gate array of the arguments. -/
def gateOut (c : Dev nD) : S50000x1.Idx → EReal :=
  gateArr (m ((c : Thread nD τ).loc main_arg0)) (m ((c : Thread nD τ).loc main_arg7)) ((m ((c : Thread nD τ).loc main_arg8)) (ix1 0))

/-- After the run the first result holds the layer array of the arguments. -/
theorem final7 (c : Dev nD) : (dats m 0 c).arrAt 7 cfg0.N = layerOut m c := by
  refine ((dats m 0 c).arrAt_eq_of_cover 7 _ (fun t _ => flushed7_eq m c t) cover7).trans ?_
  unfold layerOut
  rw [V_main_arg0, V_lp, V_hp, V_main_arg7, V_offset, V_main_arg9]
  congr 1
  exact funext fun j => V_bias m c j

/-- After the run the second result holds the gate array of the arguments. -/
theorem final8 (c : Dev nD) : (dats m 0 c).arrAt 8 cfg0.N = gateOut m c := by
  refine ((dats m 0 c).arrAt_eq_of_cover 8 _ (fun t _ => flushed8_eq m c t) cover8).trans ?_
  unfold gateOut
  rw [V_main_arg0, V_main_arg7, V_offset]

/-- The kernel's run, read: the two results at the layer's arrays of the arguments, the arguments unchanged. -/
theorem run : θ_run defs (onTc (τ := τ) (main (F := Ideal))) ⟨m, fun _ => 0, ρ⟩ fun r => ∀ c : Dev nD,
      r.2.mem ((c : Thread nD τ).loc main_v28_0) = layerOut m c
      ∧ r.2.mem ((c : Thread nD τ).loc main_v28_1) = gateOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final7 m c), (h c).2.1.trans (final8 m c), (h c).2.2⟩)
    (run_blocks m ρ)

end Cert.KernelIdeal.Arrays

end
-- ==== Proof.ReferenceArrays.lean ====
/-
  The reference's two results as the layer's arrays.

  Read one operation at a time at an index, the reference's gate result at `(r, 0)` is 1 / (1 + e^(-logit)) of node
  `r`'s logit — the logistic function as the exact instance defines it — with the logit the contraction of row `r` of
  the features with the gate vector plus the offset; and its layer result at `(r, j)` is the maximum with 0.0 of the
  contraction of the mixed row with row `j` of the weights plus the bias. The two aggregated neighbour arrays enter
  as they are computed (the stages `val_main_v23`, `val_main_v36`); they are not opened.
-/
import proofs.«104545_j10213432229976_1_alg».proof.Proof.Gen.ReferenceIdeal.Read
import proofs.«104545_j10213432229976_1_alg».proof.Proof.LayerArrays
import Idealize.ShloMosaic.Lib.ValueIdx
import Idealize.ShloMosaic.PureOps.Ideal.Laws

noncomputable section

open scoped BigOperators

namespace Cert.ReferenceIdeal.Arrays

open Idealize.ShloMosaic Idealize.ShloMosaic.ValueIdx Cert.ReferenceIdeal Cert.ReferenceIdeal.Read Cert.GatedMix

/-- The f32 word of 1.0 denotes the real number 1. -/
theorem one_eq : Ideal.ofBits .f32 0x3F800000#32 = 1 := IdealRules.sign_bit.ideal_onePat .f32

/-- The reference's gate result is the gate array. -/
theorem gate_eq (x0 : (⟨S50000x128, .f32⟩ : BufTy).Contents (Elt Ideal)) (x7 : (⟨S1x128, .f32⟩ : BufTy).Contents (Elt Ideal))
    (x8 : (⟨S1, .f32⟩ : BufTy).Contents (Elt Ideal)) :
    val_main_v10 (F := Ideal) x0 x7 x8 = gateArr x0 x7 (x8 (ix1 0)) := by
  funext i
  obtain ⟨r, z, rfl⟩ : ∃ (r : Fin 50000) (z : Fin 1), i = ix2 r z := ⟨i 0, i 1, eq_ix2 i⟩
  obtain rfl : z = 0 := Subsingleton.elim _ _
  have el : ∀ k : Fin 128, lidx_main_v1 (ix2 r 0) k = ix2 r k := fun k => funext fun a => Fin.ext (by
    match a with | ⟨0, _⟩ => rfl | ⟨1, _⟩ => rfl)
  have er : ∀ k : Fin 128, idx_main_v0 (ridx_main_v1 (ix2 r 0) k) = ix2 0 k := fun k => funext fun a => Fin.ext (by
    match a with | ⟨0, _⟩ => rfl | ⟨1, _⟩ => rfl)
  have eo : idx_main_v2 (idx_main_v3 (ix2 r (0 : Fin 1))) = ix1 0 := funext fun a => Fin.ext (by
    match a with | ⟨0, _⟩ => rfl)
  rw [val_main_v10_apply, val_main_v9_apply, val_main_cst_0_apply, val_main_v8_apply, val_main_v7_apply, val_main_cst_apply,
    val_main_v6_apply, val_main_v5_apply, val_main_v4_apply, val_main_v1_apply, val_main_v3_apply, val_main_v2_apply, eo]
  simp only [val_main_v0_apply, el, er]
  rw [gateArr_ix2]
  unfold gateAt gate logit Ideal.logistic
  show Ideal.div (Ideal.ofBits .f32 0x3F800000#32) (Ideal.ofBits .f32 0x3F800000#32 + Ideal.exp (-((∑ k : Fin 128, x0 (ix2 r k) * x7 (ix2 0 k)) + x8 (ix1 0)))) = _
  rw [one_eq]

/-- The reference's mixed signal at `(r, k)`. -/
theorem mix_eq (x0 : (⟨S50000x128, .f32⟩ : BufTy).Contents (Elt Ideal)) (x1 x2 : (⟨S800000, .i32⟩ : BufTy).Contents (Elt Ideal)) (x3 : (⟨S800000, .f32⟩ : BufTy).Contents (Elt Ideal)) (x4 x5 : (⟨S800000, .i32⟩ : BufTy).Contents (Elt Ideal)) (x6 : (⟨S800000, .f32⟩ : BufTy).Contents (Elt Ideal)) (x7 : (⟨S1x128, .f32⟩ : BufTy).Contents (Elt Ideal)) (x8 : (⟨S1, .f32⟩ : BufTy).Contents (Elt Ideal)) (r : Fin 50000) (k : Fin 128) :
    val_main_v43 (F := Ideal) x0 x1 x2 x3 x4 x5 x6 x7 x8 (ix2 r k)
      = mix one (rowOf x0 r) (rowOf (val_main_v23 (F := Ideal) x0 x1 x2 x3) r) (rowOf (val_main_v36 (F := Ideal) x0 x4 x5 x6) r) (rowOf x7 0) (x8 (ix1 0)) k := by
  have e37 : idx_main_v37 (ix2 r k) = ix2 r 0 := funext fun a => Fin.ext (by
    match a with | ⟨0, _⟩ => rfl | ⟨1, _⟩ => rfl)
  have e41 : idx_main_v41 (ix2 r k) = ix2 r 0 := funext fun a => Fin.ext (by
    match a with | ⟨0, _⟩ => rfl | ⟨1, _⟩ => rfl)
  rw [val_main_v43_apply, val_main_v38_apply, val_main_v37_apply, val_main_v42_apply, val_main_v41_apply, val_main_v40_apply,
    val_main_v39_apply, val_main_cst_6_apply, e37, e41, gate_eq, gateArr_ix2]
  rfl

/-- The reference's layer result is the layer array over the two aggregated arrays as it computes them. -/
theorem layer_eq (x0 : (⟨S50000x128, .f32⟩ : BufTy).Contents (Elt Ideal)) (x1 x2 : (⟨S800000, .i32⟩ : BufTy).Contents (Elt Ideal)) (x3 : (⟨S800000, .f32⟩ : BufTy).Contents (Elt Ideal)) (x4 x5 : (⟨S800000, .i32⟩ : BufTy).Contents (Elt Ideal)) (x6 : (⟨S800000, .f32⟩ : BufTy).Contents (Elt Ideal)) (x7 : (⟨S1x128, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) :
    val_main_v49 (F := Ideal) x0 x1 x2 x3 x4 x5 x6 x7 x8 x9 x10
      = layerArr x0 (val_main_v23 (F := Ideal) x0 x1 x2 x3) (val_main_v36 (F := Ideal) x0 x4 x5 x6) x7 (x8 (ix1 0)) x9 (fun j => x10 (ix1 j)) := by
  funext i
  obtain ⟨r, j, rfl⟩ : ∃ (r : Fin 50000) (j : Fin 128), i = ix2 r j := ⟨i 0, i 1, eq_ix2 i⟩
  have el : ∀ k : Fin 128, lidx_main_v45 (ix2 r j) k = ix2 r k := fun k => funext fun a => Fin.ext (by
    match a with | ⟨0, _⟩ => rfl | ⟨1, _⟩ => rfl)
  have er : ∀ k : Fin 128, idx_main_v44 (ridx_main_v45 (ix2 r j) k) = ix2 j k := fun k => funext fun a => Fin.ext (by
    match a with | ⟨0, _⟩ => rfl | ⟨1, _⟩ => rfl)
  have eb : idx_main_v46 (idx_main_v47 (ix2 r j)) = ix1 j := funext fun a => Fin.ext (by
    match a with | ⟨0, _⟩ => rfl)
  rw [val_main_v49_apply, val_main_v48_apply, val_main_v45_apply, val_main_v47_apply, val_main_v46_apply, val_main_call0_v0_apply,
    val_main_call0_cst_apply, eb]
  simp only [val_main_v44_apply, el, er, mix_eq]
  rw [layerArr_ix2]
  rfl

end Cert.ReferenceIdeal.Arrays

end
-- ==== Proof.lean ====
/-
  The certificate of the gated two-signal graph layer: a Pallas kernel that fuses the per-node gate, the mix of the
  two aggregated neighbour signals and the linear map with bias and clipping, against the plain jnp reference.

  Both programs aggregate the neighbour signals on the host by the same gather, product and scatter-add over the
  same edge lists; that computation is carried as one function (`aggregate`) and never opened. On top of it, node by
  node, both compute
      gate  = 1 / (1 + e^(-((Σ_k x_k θ_k) + β))),   mix_k = gate · zl_k + (1 − gate) · zh_k,
      out_j = max ((Σ_k mix_k W_jk) + b_j, 0)
  (`GatedMix`). The kernel does it 2000 nodes at a time with a lane sum, the logistic operation and a matrix-unit
  product of operands narrowed to bf16; the reference with two contractions and the logistic function spelt as
  negate, exponential, add, divide. On the extended reals a change of float format is the identity, the lane sum
  and both contractions are the same finite sums in the same arrangement, and the logistic operation is by definition
  that quotient, so the two sides are one expression: no algebraic law is needed and the finiteness of the inputs
  is not used. The kernel's idealization rewrote nothing, so the claim that it preserves the kernel is trivial.
  The three frames are the generated frame runs (the reference's: its generated run with the results dropped).
-/
import proofs.«104545_j10213432229976_1_alg».proof.Defs
import proofs.«104545_j10213432229976_1_alg».proof.Proof.Gen.Kernel
import proofs.«104545_j10213432229976_1_alg».proof.Proof.Gen.Kernel.Skeleton
import proofs.«104545_j10213432229976_1_alg».proof.Proof.Gen.Kernel.Launch
import proofs.«104545_j10213432229976_1_alg».proof.Proof.Gen.Kernel.Points
import proofs.«104545_j10213432229976_1_alg».proof.Proof.Gen.Kernel.Frame
import proofs.«104545_j10213432229976_1_alg».proof.Proof.Gen.KernelIdeal
import proofs.«104545_j10213432229976_1_alg».proof.Proof.Gen.KernelIdeal.Skeleton
import proofs.«104545_j10213432229976_1_alg».proof.Proof.Gen.KernelIdeal.Launch
import proofs.«104545_j10213432229976_1_alg».proof.Proof.Gen.KernelIdeal.Points
import proofs.«104545_j10213432229976_1_alg».proof.Proof.Gen.KernelIdeal.Frame
import proofs.«104545_j10213432229976_1_alg».proof.Proof.Gen.ReferenceIdeal
import proofs.«104545_j10213432229976_1_alg».proof.Proof.Gen.Pre_finite_inputs
import proofs.«104545_j10213432229976_1_alg».proof.Proof.KernelIdealValue
import proofs.«104545_j10213432229976_1_alg».proof.Proof.Gen.ReferenceIdeal.Run
import proofs.«104545_j10213432229976_1_alg».proof.Proof.Gen.ReferenceIdeal.Read
import proofs.«104545_j10213432229976_1_alg».proof.Proof.KernelArrays
import proofs.«104545_j10213432229976_1_alg».proof.Proof.ReferenceArrays
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's first aggregated array is the host aggregation the kernel's program performs, on the same
    arguments: the same operations with the same dimension numbers. -/
theorem aggregate_lp (x0 : (⟨Cert.ReferenceIdeal.S50000x128, .f32⟩ : BufTy).Contents (Elt Ideal)) (x1 x2 : (⟨Cert.ReferenceIdeal.S800000, .i32⟩ : BufTy).Contents (Elt Ideal)) (x3 : (⟨Cert.ReferenceIdeal.S800000, .f32⟩ : BufTy).Contents (Elt Ideal)) :
    Cert.ReferenceIdeal.Read.val_main_v23 (F := Ideal) x0 x1 x2 x3 = Cert.KernelIdeal.Prefix.aggregate (F := Ideal) x0 x1 x2 x3 := rfl

/-- The same for the second aggregated array. -/
theorem aggregate_hp (x0 : (⟨Cert.ReferenceIdeal.S50000x128, .f32⟩ : BufTy).Contents (Elt Ideal)) (x4 x5 : (⟨Cert.ReferenceIdeal.S800000, .i32⟩ : BufTy).Contents (Elt Ideal)) (x6 : (⟨Cert.ReferenceIdeal.S800000, .f32⟩ : BufTy).Contents (Elt Ideal)) :
    Cert.ReferenceIdeal.Read.val_main_v36 (F := Ideal) x0 x4 x5 x6 = Cert.KernelIdeal.Prefix.aggregate (F := Ideal) x0 x4 x5 x6 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the layer's two arrays of those arguments. -/
theorem algebraic : Cert.algebraic_KernelIdeal_ReferenceIdeal := by
  intro m ρ m' ρ' _ hagree
  refine ⟨fun c => Cert.KernelIdeal.Arrays.layerOut m c, fun c => Cert.KernelIdeal.Arrays.gateOut m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    refine (Cert.ReferenceIdeal.Read.val_main_v49_eq (F := Ideal) _ _ _ _ _ _ _ _ _ _ _).trans ?_
    rw [Cert.ReferenceIdeal.Arrays.layer_eq, aggregate_lp, aggregate_hp, a0, a1, a2, a3, a4, a5, a6, a7, a8, a9, a10]
    rfl
  · obtain ⟨a0, a1, a2, a3, a4, a5, a6, a7, a8, a9, a10⟩ := hagree c
    refine (Cert.ReferenceIdeal.Read.val_main_v10_eq (F := Ideal) _ _ _).trans ?_
    rw [Cert.ReferenceIdeal.Arrays.gate_eq, a0, a7, a8]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
